-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S4000000 : Shape := ⟨1, ![4000000]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x5 .f32) (main_arg1 : FVec F S4000000x5 .f32) (main_arg2 : FVec F S4000000 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S4000000x5 : Shape := ⟨2, ![4000000, 5]⟩
abbrev S4000000 : Shape := ⟨1, ![4000000]⟩
abbrev S4000000x1 : Shape := ⟨2, ![4000000, 1]⟩
abbrev S2000x5 : Shape := ⟨2, ![2000, 5]⟩
abbrev S2000x1 : Shape := ⟨2, ![2000, 1]⟩
abbrev S2000 : Shape := ⟨1, ![2000]⟩

abbrev nBuf : Space → Nat
  | .hbm => 4
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S4000000, .f32⟩
  | .hbm, ⟨3, _⟩ => ⟨S4000000x1, .f32⟩
  | .local _ .vmem, ⟨0, _⟩ => ⟨S2000x5, .f32⟩
  | .local _ .vmem, ⟨1, _⟩ => ⟨S2000x5, .f32⟩
  | .local _ .vmem, ⟨2, _⟩ => ⟨S2000x5, .f32⟩
  | .local _ .vmem, ⟨3, _⟩ => ⟨S2000x5, .f32⟩
  | .local _ .vmem, ⟨4, _⟩ => ⟨S2000x1, .f32⟩
  | .local _ .vmem, ⟨5, _⟩ => ⟨S2000x1, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2000x5_S2000x5_0_0 : ∀ a, (![0, 0] : Fin 2 → Nat) a + S2000x5.size a ≤ S2000x5.size a
  h_S2000x5 : 0 < S2000x5.numel
  slices_S2000x5_o0_0_S2000x1 : S2000x5.Slices ![0, 0] S2000x1
  shapeCasts_S2000x1_S2000 : S2000x1.ShapeCasts S2000
  slices_S2000x5_o0_1_S2000x1 : S2000x5.Slices ![0, 1] S2000x1
  slices_S2000x5_o0_2_S2000x1 : S2000x5.Slices ![0, 2] S2000x1
  slices_S2000x5_o0_3_S2000x1 : S2000x5.Slices ![0, 3] S2000x1
  slices_S2000x5_o0_4_S2000x1 : S2000x5.Slices ![0, 4] S2000x1
  inb_S2000x1_S2000x1_0_0 : ∀ a, (![0, 0] : Fin 2 → Nat) a + S2000x1.size a ≤ S2000x1.size a
  h_S2000x1 : 0 < S2000x1.numel
  shapeCasts_S2000_S2000x1 : S2000.ShapeCasts S2000x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x5.size a ≤ S4000000x5.size a
  hwx0_0 : ∀ i : grid0.Coords, EltTy.bits .f32 = 32 ∨ (Rect.block (s := S4000000x5) S2000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x5.size a ≤ S4000000x5.size a
  hwx0_1 : ∀ i : grid0.Coords, EltTy.bits .f32 = 32 ∨ (Rect.block (s := S4000000x5) S2000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S4000000x1.size a
  hwx0_2 : ∀ i : grid0.Coords, EltTy.bits .f32 = 32 ∨ (Rect.block (s := S4000000x1) S2000x1.size (cc0_transform_2 i) (hinb0_2 i)).WholeWords (EltTy.packing .f32)

variable [Facts₀]

abbrev win0_0 : Pipeline.Window sig grid0 :=
  Pipeline.Window.ofSpec (Memref.whole main_arg0) S2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000 : Shape := ⟨1, ![4000000]⟩
abbrev S4000000x2 : Shape := ⟨2, ![4000000, 2]⟩
abbrev S_ : Shape := ⟨0, ![]⟩
abbrev S4000000x1 : Shape := ⟨2, ![4000000, 1]⟩

abbrev nBuf : Space → Nat
  | .hbm => 143
  | .vmem => 0
  | .smem => 0
  | _ => 0

abbrev hbmTy0_0 (i : Nat) : BufTy := match i % 128 with
  | 0 => ⟨S4000000x5, .f32⟩
  | 1 => ⟨S4000000x5, .f32⟩
  | 2 => ⟨S4000000, .f32⟩
  | 3 => ⟨S4000000x2, .f32⟩
  | 4 => ⟨S4000000x2, .f32⟩
  | 5 => ⟨S_, .f32⟩
  | 6 => ⟨S_, .f32⟩
  | 7 => ⟨S_, .f32⟩
  | 8 => ⟨S4000000x2, .f32⟩
  | 9 => ⟨S4000000x2, .f32⟩
  | 10 => ⟨S_, .f32⟩
  | 11 => ⟨S4000000x2, .f32⟩
  | 12 => ⟨S4000000x2, .f32⟩
  | 13 => ⟨S4000000x1, .f32⟩
  | 14 => ⟨S4000000, .f32⟩
  | 15 => ⟨S4000000, .f32⟩
  | 16 => ⟨S4000000, .f32⟩
  | 17 => ⟨S4000000x1, .f32⟩
  | 18 => ⟨S4000000, .f32⟩
  | 19 => ⟨S_, .f32⟩
  | 20 => ⟨S4000000, .f32⟩
  | 21 => ⟨S4000000, .f32⟩
  | 22 => ⟨S4000000, .f32⟩
  | 23 => ⟨S4000000x1, .f32⟩
  | 24 => ⟨S4000000, .f32⟩
  | 25 => ⟨S_, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S4000000x2, .f32⟩
  | 43 => ⟨S4000000x2, .f32⟩
  | 44 => ⟨S_, .f32⟩
  | 45 => ⟨S_, .f32⟩
  | 46 => ⟨S_, .f32⟩
  | 47 => ⟨S4000000x2, .f32⟩
  | 48 => ⟨S4000000x2, .f32⟩
  | 49 => ⟨S_, .f32⟩
  | 50 => ⟨S4000000x2, .f32⟩
  | 51 => ⟨S4000000x2, .f32⟩
  | 52 => ⟨S4000000x1, .f32⟩
  | 53 => ⟨S4000000, .f32⟩
  | 54 => ⟨S4000000, .f32⟩
  | 55 => ⟨S4000000, .f32⟩
  | 56 => ⟨S4000000x1, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S4000000x1, .f32⟩
  | 63 => ⟨S4000000, .f32⟩
  | 64 => ⟨S_, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S4000000, .f32⟩
  | 86 => ⟨S4000000, .f32⟩
  | 87 => ⟨S4000000x1, .f32⟩
  | 88 => ⟨S4000000, .f32⟩
  | 89 => ⟨S4000000x1, .f32⟩
  | 90 => ⟨S4000000, .f32⟩
  | 91 => ⟨S4000000, .f32⟩
  | 92 => ⟨S4000000x1, .f32⟩
  | 93 => ⟨S4000000, .f32⟩
  | 94 => ⟨S4000000x1, .f32⟩
  | 95 => ⟨S4000000, .f32⟩
  | 96 => ⟨S4000000, .f32⟩
  | 97 => ⟨S4000000, .f32⟩
  | 98 => ⟨S4000000, .f32⟩
  | 99 => ⟨S_, .f32⟩
  | 100 => ⟨S4000000, .f32⟩
  | 101 => ⟨S4000000, .f32⟩
  | 102 => ⟨S4000000, .f32⟩
  | 103 => ⟨S4000000, .f32⟩
  | 104 => ⟨S4000000, .f32⟩
  | 105 => ⟨S4000000, .f32⟩
  | 106 => ⟨S4000000, .f32⟩
  | 107 => ⟨S4000000, .f32⟩
  | 108 => ⟨S4000000, .f32⟩
  | 109 => ⟨S4000000, .f32⟩
  | 110 => ⟨S_, .f32⟩
  | 111 => ⟨S4000000, .f32⟩
  | 112 => ⟨S4000000, .f32⟩
  | 113 => ⟨S4000000, .f32⟩
  | 114 => ⟨S4000000, .f32⟩
  | 115 => ⟨S4000000, .f32⟩
  | 116 => ⟨S4000000, .f32⟩
  | 117 => ⟨S4000000, .f32⟩
  | 118 => ⟨S4000000, .f32⟩
  | 119 => ⟨S4000000, .f32⟩
  | 120 => ⟨S4000000, .f32⟩
  | 121 => ⟨S4000000, .f32⟩
  | 122 => ⟨S_, .f32⟩
  | 123 => ⟨S4000000, .f32⟩
  | 124 => ⟨S4000000, .f32⟩
  | 125 => ⟨S_, .f32⟩
  | 126 => ⟨S_, .f32⟩
  | 127 => ⟨S4000000, .f32⟩
  | _ => ⟨S4000000x5, .f32⟩

abbrev hbmTy0_1 (i : Nat) : BufTy := match i % 128 with
  | 0 => ⟨S4000000, .f32⟩
  | 1 => ⟨S4000000, .f32⟩
  | 2 => ⟨S_, .f32⟩
  | 3 => ⟨S4000000, .f32⟩
  | 4 => ⟨S4000000, .f32⟩
  | 5 => ⟨S_, .f32⟩
  | 6 => ⟨S4000000, .f32⟩
  | 7 => ⟨S4000000, .f32⟩
  | 8 => ⟨S_, .f32⟩
  | 9 => ⟨S4000000, .f32⟩
  | 10 => ⟨S4000000, .f32⟩
  | 11 => ⟨S4000000x1, .f32⟩
  | 12 => ⟨S_, .f32⟩
  | 13 => ⟨S4000000x1, .f32⟩
  | 14 => ⟨S4000000x1, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_8 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_9 : Ref sig .tc := ⟨.hbm, 122, rfl⟩
abbrev main_v99 : Ref sig .tc := ⟨.hbm, 123, rfl⟩
abbrev main_v100 : Ref sig .tc := ⟨.hbm, 124, rfl⟩
abbrev main_cst_10 : Ref sig .tc := ⟨.hbm, 125, rfl⟩
abbrev main_call2_v0 : Ref sig .tc := ⟨.hbm, 126, rfl⟩
abbrev main_call2_v1 : Ref sig .tc := ⟨.hbm, 127, rfl⟩
abbrev main_v101 : Ref sig .tc := ⟨.hbm, 128, rfl⟩
abbrev main_v102 : Ref sig .tc := ⟨.hbm, 129, rfl⟩
abbrev main_cst_11 : Ref sig .tc := ⟨.hbm, 130, rfl⟩
abbrev main_v103 : Ref sig .tc := ⟨.hbm, 131, rfl⟩
abbrev main_v104 : Ref sig .tc := ⟨.hbm, 132, rfl⟩
abbrev main_cst_12 : Ref sig .tc := ⟨.hbm, 133, rfl⟩
abbrev main_v105 : Ref sig .tc := ⟨.hbm, 134, rfl⟩
abbrev main_v106 : Ref sig .tc := ⟨.hbm, 135, rfl⟩
abbrev main_cst_13 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_14 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]

class Facts₀ : Prop where
  slices_S4000000x5_S4000000x2_0_0 : S4000000x5.Slices ![0, 0] S4000000x2
  slices_S4000000x5_S4000000x2_0_2 : S4000000x5.Slices ![0, 2] S4000000x2
  bcast_S_S4000000x2 : S_.BroadcastsInDim S4000000x2 (![] : Fin 0 → Fin S4000000x2.rank)
  slices_S4000000x5_S4000000x1_0_4 : S4000000x5.Slices ![0, 4] S4000000x1
  shapeCasts_S4000000x1_S4000000 : S4000000x1.ShapeCasts S4000000
  slices_S4000000x2_S4000000x1_0_0 : S4000000x2.Slices ![0, 0] S4000000x1
  bcast_S_S4000000 : S_.BroadcastsInDim S4000000 (![] : Fin 0 → Fin S4000000.rank)
  slices_S4000000x2_S4000000x1_0_1 : S4000000x2.Slices ![0, 1] S4000000x1
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)

variable [Facts₀]

class Facts : Prop extends Facts₀ where

variable [Facts]
-- ==== Proof.RowLoss.lean ====
/-
  The loss of ONE ROW: a predicted box and a target box, each five numbers (x, y, w, h, r), to one number.

  A box stands for the Gaussian with mean (x, y) and covariance Σ = R(r) · diag((w/2)², (h/2)²) · R(r)ᵀ, whose entries are
      Σ₁₁ = a c² + b s²,   Σ₁₂ = (a − b) s c,   Σ₂₂ = a s² + b c²      (a = (w/2)², b = (h/2)², c = cos r, s = sin r),
  the sides w and h first clamped to [1e-7, 1e7]. For a predicted box p and a target box t, with δ = (x_p − x_t, y_p − y_t),
      D = δᵀ Σ_t⁻¹ δ + tr(Σ_t⁻¹ Σ_p) + log(det Σ_t / det Σ_p) − 2,
  the 2×2 inverse written out (each of the first two terms a quadratic expression over det Σ_t), and the loss is
      (1 − 1 / (1 + √(max(1e-6, D)))) · 1.

  The function is written once, over any float instance, as the tree of float operations in the order both programs apply
  them — so that each program's value at a row IS this tree, with no algebra in between. The two programs differ in how
  they spell five operations (cosine, sine, logarithm, square root, quotient: the vector unit's on one side, the host's on
  the other), so those five are a parameter, `Ops`; at the exact instance the two spellings are the same five functions
  of an extended real (`hostOps_eq_vectorOps`). The six constants are kept as their binary32 words: both programs carry the
  same words, and nothing here depends on their values.
-/
import Idealize.ShloMosaic.PureOps.Ideal
import Idealize.ShloMosaic.Lib.ValueIdx

noncomputable section

namespace Cert.BoxLoss

open Idealize.ShloMosaic Idealize.ShloMosaic.ValueIdx

variable {F : FTy → Type} [FloatOps F]

/-- The five operations the two programs spell differently. -/
structure Ops (F : FTy → Type) where
  cos : F .f32 → F .f32
  sin : F .f32 → F .f32
  log : F .f32 → F .f32
  sqrt : F .f32 → F .f32
  div : F .f32 → F .f32 → F .f32

/-- The vector unit's spelling. -/
def vectorOps : Ops F := ⟨FloatOps.cos, FloatOps.sin, FloatOps.log, FloatOps.sqrt, FloatOps.divf⟩

/-- The host's spelling. -/
def hostOps : Ops F :=
  ⟨FloatOps.hostUnary .cos, FloatOps.hostUnary .sin, FloatOps.hostUnary .log, FloatOps.hostUnary .sqrt, FloatOps.hostDivf⟩

/-- On the extended reals the two spellings are the same five functions. -/
theorem hostOps_eq_vectorOps : hostOps (F := Ideal) = vectorOps := rfl

/-! ## The constants, as words -/

/-- 1e-7 and 1e7 (rounded to binary32): the bounds a side is clamped to. -/
def sideLo : F .f32 := FloatOps.ofBits .f32 0x33D6BF95#32
def sideHi : F .f32 := FloatOps.ofBits .f32 0x4B189680#32
/-- 1/2, 2, 1e-6 (rounded to binary32), 1. -/
def half : F .f32 := FloatOps.ofBits .f32 0x3F000000#32
def two : F .f32 := FloatOps.ofBits .f32 0x40000000#32
def floorD : F .f32 := FloatOps.ofBits .f32 0x358637BD#32
def one : F .f32 := FloatOps.ofBits .f32 0x3F800000#32

/-! ## The steps -/

/-- A side clamped to [1e-7, 1e7]: min(hi, max(lo, w)). -/
def clampSide (w : F .f32) : F .f32 := FloatOps.minimumf sideHi (FloatOps.maximumf sideLo w)

/-- The squared semi-axis (w/2)², as (½·w)·(½·w). -/
def semiAxisSq (w : F .f32) : F .f32 := FloatOps.mulf (FloatOps.mulf half w) (FloatOps.mulf half w)

/-- Σ₁₁ = a c c + b s s. -/
def cov11 (a b c s : F .f32) : F .f32 :=
  FloatOps.addf (FloatOps.mulf (FloatOps.mulf a c) c) (FloatOps.mulf (FloatOps.mulf b s) s)

/-- Σ₁₂ = (a − b) s c. -/
def cov12 (a b c s : F .f32) : F .f32 := FloatOps.mulf (FloatOps.mulf (FloatOps.subf a b) s) c

/-- Σ₂₂ = a s s + b c c. -/
def cov22 (a b c s : F .f32) : F .f32 :=
  FloatOps.addf (FloatOps.mulf (FloatOps.mulf a s) s) (FloatOps.mulf (FloatOps.mulf b c) c)

/-- det Σ = Σ₁₁ Σ₂₂ − Σ₁₂ Σ₁₂. -/
def det2 (u11 u12 u22 : F .f32) : F .f32 := FloatOps.subf (FloatOps.mulf u11 u22) (FloatOps.mulf u12 u12)

/-- δᵀ Σ_t⁻¹ δ = (t₂₂ dx dx − (2 t₁₂) dx dy + t₁₁ dy dy) / det Σ_t. -/
def quadForm (o : Ops F) (t11 t12 t22 dx dy dt : F .f32) : F .f32 :=
  o.div (FloatOps.addf
      (FloatOps.subf (FloatOps.mulf (FloatOps.mulf t22 dx) dx) (FloatOps.mulf (FloatOps.mulf (FloatOps.mulf two t12) dx) dy))
      (FloatOps.mulf (FloatOps.mulf t11 dy) dy)) dt

/-- tr(Σ_t⁻¹ Σ_p) = (t₂₂ p₁₁ − (2 t₁₂) p₁₂ + t₁₁ p₂₂) / det Σ_t. -/
def traceTerm (o : Ops F) (t11 t12 t22 p11 p12 p22 dt : F .f32) : F .f32 :=
  o.div (FloatOps.addf
      (FloatOps.subf (FloatOps.mulf t22 p11) (FloatOps.mulf (FloatOps.mulf two t12) p12))
      (FloatOps.mulf t11 p22)) dt

/-- From the two leading terms and the two determinants to the loss: D = q + (tr + log(dt / dp)) − 2, then
    (1 − 1 / (1 + √(max(1e-6, D)))) · 1. -/
def lossOf (o : Ops F) (q tr dt dp : F .f32) : F .f32 :=
  FloatOps.mulf
    (FloatOps.subf one (o.div one (FloatOps.addf one (o.sqrt (FloatOps.maximumf floorD
      (FloatOps.subf (FloatOps.addf q (FloatOps.addf tr (o.log (o.div dt dp)))) two))))))
    one

/-- The loss from the two covariances' entries and the difference of the means. -/
def lossOfCov (o : Ops F) (p11 p12 p22 t11 t12 t22 dx dy : F .f32) : F .f32 :=
  lossOf o (quadForm o t11 t12 t22 dx dy (det2 t11 t12 t22)) (traceTerm o t11 t12 t22 p11 p12 p22 (det2 t11 t12 t22))
    (det2 t11 t12 t22) (det2 p11 p12 p22)

/-- The loss from the squared semi-axes, the cosines and sines, and the difference of the means. -/
def lossOfAxes (o : Ops F) (pa pb pc ps ta tb tc ts dx dy : F .f32) : F .f32 :=
  lossOfCov o (cov11 pa pb pc ps) (cov12 pa pb pc ps) (cov22 pa pb pc ps)
    (cov11 ta tb tc ts) (cov12 ta tb tc ts) (cov22 ta tb tc ts) dx dy

/-- THE ROW: the loss of the predicted box (xp, yp, wp, hp, rp) against the target box (xt, yt, wt, ht, rt). -/
def rowLoss (o : Ops F) (xp yp wp hp rp xt yt wt ht rt : F .f32) : F .f32 :=
  lossOfAxes o (semiAxisSq (clampSide wp)) (semiAxisSq (clampSide hp)) (o.cos rp) (o.sin rp)
    (semiAxisSq (clampSide wt)) (semiAxisSq (clampSide ht)) (o.cos rt) (o.sin rt)
    (FloatOps.subf xp xt) (FloatOps.subf yp yt)

/-! ## The whole array -/

/-- Four million boxes, five numbers each; and the column of their losses. -/
abbrev Boxes : Shape := ⟨2, ![4000000, 5]⟩
abbrev Losses : Shape := ⟨2, ![4000000, 1]⟩

/-- Entry `k` of row `r` of an array of boxes. -/
abbrev entry (P : Boxes.Idx → Elt F .f32) (r : Fin 4000000) (k : Fin 5) : F .f32 :=
  P (ix2 (n0 := 4000000) (n1 := 5) r k)

/-- THE RESULT as one function of the two argument arrays: row `r` of the column is the loss of row `r` of the
    predictions against row `r` of the targets. -/
def lossArray (o : Ops F) (P T : Boxes.Idx → Elt F .f32) : Losses.Idx → Elt F .f32 := fun i =>
  rowLoss o (entry P (i 0) 0) (entry P (i 0) 1) (entry P (i 0) 2) (entry P (i 0) 3) (entry P (i 0) 4)
    (entry T (i 0) 0) (entry T (i 0) 1) (entry T (i 0) 2) (entry T (i 0) 3) (entry T (i 0) 4)

/-- On the extended reals the host's spelling and the vector unit's give one array. -/
theorem lossArray_hostOps (P T : Boxes.Idx → Elt Ideal .f32) : lossArray hostOps P T = lossArray vectorOps P T := by
  rw [hostOps_eq_vectorOps]

end Cert.BoxLoss

end
-- ==== Proof.BlockRow.lean ====
/-
  What the kernel's body leaves in its output block, row by row.

  The body loads a block of 2000 predicted boxes and the matching block of 2000 target boxes (2000 × 5 each), takes
  each block's five columns apart as vectors of 2000, applies the operations of `rowLoss` to those vectors entry by
  entry, and stores the result as a 2000 × 1 column. So entry (r, 0) of what it stores is `rowLoss` of row r of the two
  blocks: taking a column apart and reading entry r is reading entry (r, k) of the block, and every other operation acts
  on entry r alone.
-/
import proofs.«112984_j76630806495957_2_alg».proof.Proof.Gen.KernelIdeal.Frame
import proofs.«112984_j76630806495957_2_alg».proof.Proof.RowLoss
import Idealize.ShloMosaic.Lib.Pipeline.Value
import Idealize.ShloMosaic.Lib.ValueIdx

noncomputable section

namespace Cert.KernelIdeal.BlockRow

open Cert.KernelIdeal Cert.KernelIdeal.Gen Idealize.ShloMosaic Idealize.ShloMosaic.ValueIdx Cert.BoxLoss

variable {F : FTy → Type} [FloatOps F]

/-! ## Columns of a block -/

/-- Column `k` of a 2000 × 5 block, cut out as 2000 × 1 and read back as a vector of 2000: its entry `r` is the block's
    entry (r, k). -/
theorem column_apply {α : Type} (x : S2000x5.Idx → α) (k : Nat) (hk : k < 5) (hs : S2000x5.Slices ![0, k] S2000x1)
    (hc : S2000x1.ShapeCasts S2000) (r : Fin 2000) :
    shapeCast S2000 (extractStridedSlice S2000x1 ![0, k] x hs) hc (ix1 r) = x (ix2 r ⟨k, hk⟩) := by
  refine (shapeCast_apply _ hc (ix1 r) (ix2 r (0 : Fin 1)) ?_).trans ?_
  · rewrite [Shape.rowMajor_val_two, Shape.rowMajor_val_one]
    show r.val * 1 + 0 = r.val
    omega
  · exact extractStridedSlice_apply ![0, k] x hs (ix2 r 0) (ix2 r ⟨k, hk⟩) (fun a => match a with
      | ⟨0, _⟩ => by show r.val = 0 + r.val; omega
      | ⟨1, _⟩ => by show k = k + 0; omega)

/-- A vector of 2000 laid out as a 2000 × 1 column: its entry (r, 0) is the vector's entry `r`. -/
theorem asColumn_apply {α : Type} (v : S2000.Idx → α) (hc : S2000.ShapeCasts S2000x1) (r : Fin 2000) :
    shapeCast S2000x1 v hc (ix2 r (0 : Fin 1)) = v (ix1 r) := by
  refine shapeCast_apply v hc (ix2 r 0) (ix1 r) ?_
  rewrite [Shape.rowMajor_val_two, Shape.rowMajor_val_one]
  show r.val = r.val * 1 + 0
  omega

/-! ## The body's vectors at an entry

The body's pure values are the generated payload terms (`k0_payN`). Six of them are columns of an input block as they are
(the two means and the angle of each box); four carry the first steps on a side (the clamp, and for one of them the
squared half as well). -/

/-- Entry (r, k) of a 2000 × 5 block. -/
abbrev at5 (x : Vec F S2000x5 .f32) (r : Fin 2000) (k : Fin 5) : F .f32 := x (ix2 (n0 := 2000) (n1 := 5) r k)

variable (x0 x1 : Vec F S2000x5 .f32) (r : Fin 2000)

theorem predX_apply : k0_pay2 x0 (ix1 r) = at5 x0 r 0 :=
  column_apply x0 0 (by decide) slices_S2000x5_o0_0_S2000x1 shapeCasts_S2000x1_S2000 r
theorem predY_apply : k0_pay3 x0 (ix1 r) = at5 x0 r 1 :=
  column_apply x0 1 (by decide) slices_S2000x5_o0_1_S2000x1 shapeCasts_S2000x1_S2000 r
theorem predAngle_apply : k0_pay4 x0 (ix1 r) = at5 x0 r 4 :=
  column_apply x0 4 (by decide) slices_S2000x5_o0_4_S2000x1 shapeCasts_S2000x1_S2000 r
theorem targX_apply : k0_pay5 x1 (ix1 r) = at5 x1 r 0 :=
  column_apply x1 0 (by decide) slices_S2000x5_o0_0_S2000x1 shapeCasts_S2000x1_S2000 r
theorem targY_apply : k0_pay6 x1 (ix1 r) = at5 x1 r 1 :=
  column_apply x1 1 (by decide) slices_S2000x5_o0_1_S2000x1 shapeCasts_S2000x1_S2000 r
theorem targAngle_apply : k0_pay7 x1 (ix1 r) = at5 x1 r 4 :=
  column_apply x1 4 (by decide) slices_S2000x5_o0_4_S2000x1 shapeCasts_S2000x1_S2000 r

/-- The predicted height, clamped. -/
theorem predH_apply : k0_pay8 x0 (ix1 r) = clampSide (at5 x0 r 3) :=
  congrArg clampSide (column_apply x0 3 (by decide) slices_S2000x5_o0_3_S2000x1 shapeCasts_S2000x1_S2000 r)
/-- The target width, clamped. -/
theorem targW_apply : k0_pay9 x1 (ix1 r) = clampSide (at5 x1 r 2) :=
  congrArg clampSide (column_apply x1 2 (by decide) slices_S2000x5_o0_2_S2000x1 shapeCasts_S2000x1_S2000 r)
/-- The target height, clamped. -/
theorem targH_apply : k0_pay10 x1 (ix1 r) = clampSide (at5 x1 r 3) :=
  congrArg clampSide (column_apply x1 3 (by decide) slices_S2000x5_o0_3_S2000x1 shapeCasts_S2000x1_S2000 r)
/-- The predicted width: clamped, halved, squared. -/
theorem predA_apply : k0_pay15 x0 (ix1 r) = semiAxisSq (clampSide (at5 x0 r 2)) :=
  congrArg (fun z => semiAxisSq (clampSide z))
    (column_apply x0 2 (by decide) slices_S2000x5_o0_2_S2000x1 shapeCasts_S2000x1_S2000 r)

/-! ## The stored block -/

theorem zeroOffsets : (![0, 0] : Fin 2 → Nat) = fun _ => 0 := funext fun a => by fin_cases a <;> rfl

/-- WHAT THE BODY LEAVES in the output block from input blocks `x0` (predictions) and `x1` (targets): entry (r, 0) is
    the loss of row `r` of `x0` against row `r` of `x1`. The one store covers the block, so the block is its payload;
    the payload is a vector of 2000 laid out as a column; and the vector's entry `r` is the tree of `rowLoss` over the
    entries `r` of the columns of `x0` and `x1`, every operation between acting entry by entry. -/
theorem out_apply :
    out0_2 x0 x1 (ix2 r (0 : Fin 1))
      = rowLoss vectorOps (at5 x0 r 0) (at5 x0 r 1) (at5 x0 r 2) (at5 x0 r 3) (at5 x0 r 4)
          (at5 x1 r 0) (at5 x1 r 1) (at5 x1 r 2) (at5 x1 r 3) (at5 x1 r 4) := by
  unfold out0_2
  rw [View.canon_unit_zero zeroOffsets]
  simp only [View.ld_unit_zero (S := S2000x5) zeroOffsets]
  unfold k0_pay1
  refine (asColumn_apply _ shapeCasts_S2000_S2000x1 r).trans ?_
  refine Eq.trans (b := lossOfAxes vectorOps (k0_pay15 x0 (ix1 r)) (semiAxisSq (k0_pay8 x0 (ix1 r)))
      (FloatOps.cos (k0_pay4 x0 (ix1 r))) (FloatOps.sin (k0_pay4 x0 (ix1 r)))
      (semiAxisSq (k0_pay9 x1 (ix1 r))) (semiAxisSq (k0_pay10 x1 (ix1 r)))
      (FloatOps.cos (k0_pay7 x1 (ix1 r))) (FloatOps.sin (k0_pay7 x1 (ix1 r)))
      (FloatOps.subf (k0_pay2 x0 (ix1 r)) (k0_pay5 x1 (ix1 r)))
      (FloatOps.subf (k0_pay3 x0 (ix1 r)) (k0_pay6 x1 (ix1 r)))) rfl ?_
  rw [predA_apply, predH_apply, predAngle_apply, targW_apply, targH_apply, targAngle_apply,
    predX_apply, targX_apply, predY_apply, targY_apply]
  rfl

/-- The same at any index of the block: a 2000 × 1 index is (j 0, 0). -/
theorem out_row (j : S2000x1.Idx) :
    out0_2 x0 x1 j
      = rowLoss vectorOps (at5 x0 (j 0) 0) (at5 x0 (j 0) 1) (at5 x0 (j 0) 2) (at5 x0 (j 0) 3) (at5 x0 (j 0) 4)
          (at5 x1 (j 0) 0) (at5 x1 (j 0) 1) (at5 x1 (j 0) 2) (at5 x1 (j 0) 3) (at5 x1 (j 0) 4) := by
  obtain ⟨p, q, rfl⟩ : ∃ (p : Fin 2000) (q : Fin 1), j = ix2 p q := ⟨j 0, j 1, eq_ix2 j⟩
  obtain rfl : q = 0 := Subsingleton.elim _ _
  exact out_apply x0 x1 p

end Cert.KernelIdeal.BlockRow

end
-- ==== Proof.KernelArray.lean ====
/-
  From the kernel's blocks to its whole result array.

  The kernel runs over a grid of 2000 points. Point `t` is given rows 2000·t … 2000·t + 1999 of the predictions and of the
  targets (all five columns) and writes back rows 2000·t … 2000·t + 1999 of the one-column result. What it writes is, row
  by row, the loss of its input rows (`BlockRow.out_row`), and row `ρ` of its blocks is row 2000·t + ρ of the arrays: so
  point `t` writes block `t` of ONE array, `lossArray` of the two argument arrays. The 2000 blocks tile the four million
  rows (row `r` lies in the block of point `r / 2000`), hence the result array ends as that array everywhere.
-/
import proofs.«112984_j76630806495957_2_alg».proof.Proof.Gen.KernelIdeal.Value
import proofs.«112984_j76630806495957_2_alg».proof.Proof.BlockRow
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx Cert.BoxLoss Cert.KernelIdeal.BlockRow
open Idealize.ShloMosaic.Pipeline (Dat)

variable {F : FTy → Type} [FloatOps F]
variable (m : (ℓ : Loc nD τ sig) → Buf (Elt F) ℓ) (ρ : Dev nD → PrngReg)

/-! ## Which block each point is given -/

/-- Decided over the 2000 grid points: on the row axis each of the three windows is at block `t` at point `t`; on the
    column axis each has the one block there is. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-! ## What a point writes back -/

/-- WHAT POINT `t` WRITES BACK is block `t` of `lossArray` of the argument arrays: at row `j 0` of the block it is the
    loss of row `j 0` of the two input blocks, and entry (j 0, k) of an input block is entry (2000·t + j 0, k) of its
    array — the row the output block's index (j 0, 0) lands on. -/
theorem flushed_eq (c : Dev nD) (t : Fin cfg0.N) :
    (dats m 0 c).flushed 2 t
      = ((cfg0.win 2).blk t).view.read (Elt F) (lossArray vectorOps (V m c main_arg0) (V m c main_arg1)) := by
  rw [Cert.KernelIdeal.Value.flushed2]
  obtain ⟨e00, e01, e10, e11, e20, e21⟩ := index_facts t
  funext j
  show out0_2 (iblk m c 0 t) (iblk m c 1 t) j
    = lossArray vectorOps (V m c main_arg0) (V m c main_arg1) (((cfg0.win 2).blk t).view.emb j)
  rw [out_row (iblk m c 0 t) (iblk m c 1 t) j]
  have h0 : ∀ k : Fin 5, at5 (iblk m c 0 t) (j 0) k
      = entry (V m c main_arg0) ((((cfg0.win 2).blk t).view.emb j) 0) k := by
    intro k
    show V m c main_arg0 (((cfg0.win 0).blk t).view.emb (ix2 (j 0) k))
      = V m c main_arg0 (ix2 ((((cfg0.win 2).blk t).view.emb j) 0) k)
    refine congrArg _ (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 5 + 1 * k.val = k.val
      omega
  have h1 : ∀ k : Fin 5, at5 (iblk m c 1 t) (j 0) k
      = entry (V m c main_arg1) ((((cfg0.win 2).blk t).view.emb j) 0) k := by
    intro k
    show V m c main_arg1 (((cfg0.win 1).blk t).view.emb (ix2 (j 0) k))
      = V m c main_arg1 (ix2 ((((cfg0.win 2).blk t).view.emb j) 0) k)
    refine congrArg _ (funext fun a => Fin.ext ?_)
    match a with
    | ⟨0, _⟩ =>
      show win0_1.index t (0 : Fin 2) * 2000 + 1 * (j 0).val = win0_2.index t (0 : Fin 2) * 2000 + 1 * (j 0).val
      omega
    | ⟨1, _⟩ =>
      show win0_1.index t (1 : Fin 2) * 5 + 1 * k.val = k.val
      omega
  rw [h0 0, h0 1, h0 2, h0 3, h0 4, h1 0, h1 1, h1 2, h1 3, h1 4]
  rfl

/-! ## The blocks tile the array -/

/-- An index of the result array is in point `t`'s block iff each coordinate is in the block's range on its axis. -/
theorem mem_blk (t : Fin cfg0.N) (i : S4000000x1.Idx) :
    i ∈ ((cfg0.win 2).blk t).view.set ↔ ∀ a : Fin 2, win0_2.index t a * S2000x1.size a ≤ (i a).val
      ∧ (i a).val < win0_2.index t a * S2000x1.size a + S2000x1.size a := by
  show i ∈ ((View.whole main_v0).slice (win0_2.rect t)).set ↔ _
  rw [View.set_slice_whole, Rect.mem_set_unit]
  exact Iff.rfl

/-- Every index of the result array is in the block of a point that writes back: row `r` in that of point `r / 2000`. -/
theorem cover (i : S4000000x1.Idx) :
    ∃ t : Fin cfg0.N, (cfg0.win 2).flush t = true ∧ i ∈ ((cfg0.win 2).blk t).view.set := by
  have hi0 : (i 0).val < 4000000 := (i 0).isLt
  have hi1 : (i 1).val < 1 := (i 1).isLt
  have ht : (i 0).val / 2000 < cfg0.N := by show (i 0).val / 2000 < 2000; omega
  obtain ⟨-, -, -, -, e20, e21⟩ := index_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    have e : win0_2.index ⟨(i 0).val / 2000, ht⟩ (0 : Fin 2) = (i 0).val / 2000 := e20
    omega
  | ⟨1, _⟩ =>
    show win0_2.index ⟨(i 0).val / 2000, ht⟩ (1 : Fin 2) * 1 ≤ (i 1).val
      ∧ (i 1).val < win0_2.index ⟨(i 0).val / 2000, ht⟩ (1 : Fin 2) * 1 + 1
    omega

/-! ## The array, and the run -/

/-- THE RESULT ARRAY after the run is `lossArray` of the two argument arrays as launched. -/
theorem final (c : Dev nD) :
    (dats m 0 c).arrAt 2 cfg0.N
      = lossArray vectorOps (m ((c : Thread nD τ).loc main_arg0)) (m ((c : Thread nD τ).loc main_arg1)) :=
  (dats m 0 c).arrAt_eq_of_cover 2 _ (fun t _ => flushed_eq m c t) cover

/-- The kernel's run, read: every weakly fair execution ends with the result array at `lossArray` of the argument arrays,
    and the arguments as launched. -/
theorem run : θ_run defs (onTc (τ := τ) (main (F := F))) ⟨m, fun _ => 0, ρ⟩ fun r => ∀ c : Dev nD,
      r.2.mem ((c : Thread nD τ).loc main_v0)
        = lossArray vectorOps (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.ReferenceRow.lean ====
/-
  What the reference program computes, row by row.

  The reference takes the two arrays of four million boxes apart by slicing: the means as the first two columns, the sides
  as the next two (clamped as a 4000000 × 2 array, then split), the angle as the last; every column is then read back as a
  vector of four million, the operations of `rowLoss` are applied to those vectors entry by entry, and the result is laid
  out as a 4000000 × 1 column and multiplied by a column of ones. So entry (r, 0) of its result is `rowLoss` of row r of
  the two arrays: each slice-and-reshape reads entry (r, k) of an array, and every other operation acts on entry r alone.
-/
import proofs.«112984_j76630806495957_2_alg».proof.Proof.Gen.ReferenceIdeal.Read
import proofs.«112984_j76630806495957_2_alg».proof.Proof.RowLoss
import Idealize.ShloMosaic.Lib.ValueIdx

noncomputable section

namespace Cert.ReferenceIdeal.RowValue

open Cert.ReferenceIdeal Cert.ReferenceIdeal.Gen Cert.ReferenceIdeal.Read Idealize.ShloMosaic Idealize.ShloMosaic.ValueIdx
open Cert.BoxLoss

variable {F : FTy → Type} [FloatOps F]
variable (x0 x1 : Boxes.Idx → Elt F .f32) (i : S4000000.Idx)

/-! ## The columns at an entry

Each of the ten vectors the arithmetic starts from is an argument array read through two or three slices and one reshape;
at entry `i` that is the array at row `i 0` and a fixed column. -/

/-- The predicted mean's first coordinate: column 0 of the first two columns of the predictions. -/
theorem predX_apply : val_main_v67 x0 i = entry x0 (i 0) 0 := by
  rw [val_main_v67_apply, val_main_v66_apply, val_main_v0_apply]
  exact congrArg x0 (funext fun a => match a with
    | ⟨0, _⟩ => Fin.ext (by show (i 0).val / 1 = (i 0).val; exact Nat.div_one _)
    | ⟨1, _⟩ => Fin.ext (by rfl))

/-- The predicted mean's second coordinate. -/
theorem predY_apply : val_main_v72 x0 i = entry x0 (i 0) 1 := by
  rw [val_main_v72_apply, val_main_v71_apply, val_main_v0_apply]
  exact congrArg x0 (funext fun a => match a with
    | ⟨0, _⟩ => Fin.ext (by show (i 0).val / 1 = (i 0).val; exact Nat.div_one _)
    | ⟨1, _⟩ => Fin.ext (by rfl))

/-- The predicted angle: the last column. -/
theorem predAngle_apply : val_main_v4 x0 i = entry x0 (i 0) 4 := by
  rw [val_main_v4_apply, val_main_v3_apply]
  exact congrArg x0 (funext fun a => match a with
    | ⟨0, _⟩ => Fin.ext (by show (i 0).val / 1 = (i 0).val; exact Nat.div_one _)
    | ⟨1, _⟩ => Fin.ext (by rfl))

/-- The predicted width, clamped: column 0 of the clamp of columns 2 and 3. -/
theorem predW_apply : val_main_v8 x0 i = clampSide (entry x0 (i 0) 2) := by
  rw [val_main_v8_apply, val_main_v7_apply, val_main_v2_apply, val_main_call0_v2_apply, val_main_v1_apply]
  exact congrArg clampSide (congrArg x0 (funext fun a => match a with
    | ⟨0, _⟩ => Fin.ext (by show (i 0).val / 1 = (i 0).val; exact Nat.div_one _)
    | ⟨1, _⟩ => Fin.ext (by rfl)))

/-- The predicted height, clamped: column 1 of the clamp of columns 2 and 3. -/
theorem predH_apply : val_main_v13 x0 i = clampSide (entry x0 (i 0) 3) := by
  rw [val_main_v13_apply, val_main_v12_apply, val_main_v2_apply, val_main_call0_v2_apply, val_main_v1_apply]
  exact congrArg clampSide (congrArg x0 (funext fun a => match a with
    | ⟨0, _⟩ => Fin.ext (by show (i 0).val / 1 = (i 0).val; exact Nat.div_one _)
    | ⟨1, _⟩ => Fin.ext (by rfl)))

/-- The target mean's first coordinate. -/
theorem targX_apply : val_main_v69 x1 i = entry x1 (i 0) 0 := by
  rw [val_main_v69_apply, val_main_v68_apply, val_main_v30_apply]
  exact congrArg x1 (funext fun a => match a with
    | ⟨0, _⟩ => Fin.ext (by show (i 0).val / 1 = (i 0).val; exact Nat.div_one _)
    | ⟨1, _⟩ => Fin.ext (by rfl))

/-- The target mean's second coordinate. -/
theorem targY_apply : val_main_v74 x1 i = entry x1 (i 0) 1 := by
  rw [val_main_v74_apply, val_main_v73_apply, val_main_v30_apply]
  exact congrArg x1 (funext fun a => match a with
    | ⟨0, _⟩ => Fin.ext (by show (i 0).val / 1 = (i 0).val; exact Nat.div_one _)
    | ⟨1, _⟩ => Fin.ext (by rfl))

/-- The target angle. -/
theorem targAngle_apply : val_main_v34 x1 i = entry x1 (i 0) 4 := by
  rw [val_main_v34_apply, val_main_v33_apply]
  exact congrArg x1 (funext fun a => match a with
    | ⟨0, _⟩ => Fin.ext (by show (i 0).val / 1 = (i 0).val; exact Nat.div_one _)
    | ⟨1, _⟩ => Fin.ext (by rfl))

/-- The target width, clamped. -/
theorem targW_apply : val_main_v38 x1 i = clampSide (entry x1 (i 0) 2) := by
  rw [val_main_v38_apply, val_main_v37_apply, val_main_v32_apply, val_main_call1_v2_apply, val_main_v31_apply]
  exact congrArg clampSide (congrArg x1 (funext fun a => match a with
    | ⟨0, _⟩ => Fin.ext (by show (i 0).val / 1 = (i 0).val; exact Nat.div_one _)
    | ⟨1, _⟩ => Fin.ext (by rfl)))

/-- The target height, clamped. -/
theorem targH_apply : val_main_v43 x1 i = clampSide (entry x1 (i 0) 3) := by
  rw [val_main_v43_apply, val_main_v42_apply, val_main_v32_apply, val_main_call1_v2_apply, val_main_v31_apply]
  exact congrArg clampSide (congrArg x1 (funext fun a => match a with
    | ⟨0, _⟩ => Fin.ext (by show (i 0).val / 1 = (i 0).val; exact Nat.div_one _)
    | ⟨1, _⟩ => Fin.ext (by rfl)))

/-! ## The arithmetic at an entry -/

/-- From the ten vectors to the loss, at entry `i`: every operation of the program between them acts entry by entry (a
    broadcast constant is that constant at every entry), in the order `lossOfAxes` applies them; the closing product with
    one is `lossOf`'s last step. -/
theorem loss_apply :
    FloatOps.mulf (val_main_v108 x0 x1 i) one
      = lossOfAxes hostOps (semiAxisSq (val_main_v8 x0 i)) (semiAxisSq (val_main_v13 x0 i))
          (FloatOps.hostUnary .cos (val_main_v4 x0 i)) (FloatOps.hostUnary .sin (val_main_v4 x0 i))
          (semiAxisSq (val_main_v38 x1 i)) (semiAxisSq (val_main_v43 x1 i))
          (FloatOps.hostUnary .cos (val_main_v34 x1 i)) (FloatOps.hostUnary .sin (val_main_v34 x1 i))
          (FloatOps.subf (val_main_v67 x0 i) (val_main_v69 x1 i))
          (FloatOps.subf (val_main_v72 x0 i) (val_main_v74 x1 i)) := rfl

/-! ## The result -/

/-- THE REFERENCE'S RESULT is `lossArray` of its two argument arrays, in the host's spelling: entry `j` of the last
    product is the loss vector's entry `j 0` times one. -/
theorem result_eq : val_main_v111 x0 x1 = lossArray hostOps x0 x1 := by
  funext j
  rw [val_main_v111_apply, val_main_v109_apply]
  refine (loss_apply x0 x1 (idx_main_v109 j)).trans ?_
  rw [predW_apply, predH_apply, predAngle_apply, targW_apply, targH_apply, targAngle_apply,
    predX_apply, targX_apply, predY_apply, targY_apply]
  rfl

end Cert.ReferenceIdeal.RowValue

end
-- ==== Proof.lean ====
/-
  The Gaussian-distance loss of four million pairs of rotated boxes: a tiled kernel against its whole-array reference.

  Both programs take predictions and targets, 4000000 × 5 each (a box is x, y, w, h, r), and a weight vector neither
  reads, and return a 4000000 × 1 column: row r is `BoxLoss.rowLoss` of row r of the predictions against row r of the
  targets — the sides clamped, each box's covariance built from its squared semi-axes and the cosine and sine of its
  angle, the distance δᵀ Σ_t⁻¹ δ + tr(Σ_t⁻¹ Σ_p) + log(det Σ_t / det Σ_p) − 2 floored at 1e-6, and 1 − 1/(1 + √·) of that.

  The two programs apply the SAME float operations in the SAME order to the same ten numbers of a row; they differ only
  in how the numbers reach the arithmetic and how the result is laid out. The kernel walks the rows in 2000 blocks of 2000,
  cuts each block's columns out one by one, clamps the four side columns separately, and multiplies by one before laying
  the vector out as a column; the reference slices whole arrays, clamps the two side columns of an array together, and
  multiplies by one after laying the vector out. None of that changes which number is combined with which, so no law of
  arithmetic is needed — in particular nothing about infinities, and the inputs' finiteness is never used: the whole
  argument is that reading a slice, a reshape or a block at an index reads one entry of an argument array.

    * `RowLoss`       the row function, over any float instance, its five transcendental-or-quotient operations a parameter;
                      on the extended reals the vector unit's and the host's spellings of those five coincide.
    * `BlockRow`      the kernel body's stored block at row r is the row function of row r of its two input blocks.
    * `KernelArray`   point t writes block t of one array; the blocks tile the result; so the kernel's run ends with the
                      result at `lossArray` of the arguments.
    * `ReferenceRow`  the reference's result at row r is the row function of row r of its arguments.

  The three frame claims are the generated frames (the reference's being its generated run with the result dropped); the
  kernel's idealization rewrote nothing, so `preserves` has nothing to state.
-/
import proofs.«112984_j76630806495957_2_alg».proof.Defs
import proofs.«112984_j76630806495957_2_alg».proof.Proof.Gen.Kernel
import proofs.«112984_j76630806495957_2_alg».proof.Proof.Gen.Kernel.Skeleton
import proofs.«112984_j76630806495957_2_alg».proof.Proof.Gen.Kernel.Launch
import proofs.«112984_j76630806495957_2_alg».proof.Proof.Gen.Kernel.Points
import proofs.«112984_j76630806495957_2_alg».proof.Proof.Gen.Kernel.Frame
import proofs.«112984_j76630806495957_2_alg».proof.Proof.Gen.KernelIdeal
import proofs.«112984_j76630806495957_2_alg».proof.Proof.Gen.KernelIdeal.Skeleton
import proofs.«112984_j76630806495957_2_alg».proof.Proof.Gen.KernelIdeal.Launch
import proofs.«112984_j76630806495957_2_alg».proof.Proof.Gen.KernelIdeal.Points
import proofs.«112984_j76630806495957_2_alg».proof.Proof.Gen.KernelIdeal.Frame
import proofs.«112984_j76630806495957_2_alg».proof.Proof.Gen.ReferenceIdeal
import proofs.«112984_j76630806495957_2_alg».proof.Proof.Gen.Pre_finite_inputs
import proofs.«112984_j76630806495957_2_alg».proof.Proof.Gen.KernelIdeal.Value
import proofs.«112984_j76630806495957_2_alg».proof.Proof.Gen.ReferenceIdeal.Run
import proofs.«112984_j76630806495957_2_alg».proof.Proof.Gen.ReferenceIdeal.Read
import proofs.«112984_j76630806495957_2_alg».proof.Proof.RowLoss
import proofs.«112984_j76630806495957_2_alg».proof.Proof.BlockRow
import proofs.«112984_j76630806495957_2_alg».proof.Proof.KernelArray
import proofs.«112984_j76630806495957_2_alg».proof.Proof.ReferenceRow
import Idealize.ShloMosaic.Adequacy
import Idealize.ShloMosaic.Init

noncomputable section

namespace Cert.Proof

open Idealize.ShloMosaic Idealize.SL.Sem Cert.BoxLoss

/-- The kernel as printed terminates without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations: there is nothing to preserve. -/
theorem preserves : Cert.preserves_Kernel_KernelIdeal := trivial

/-- Over the extended reals, from memories that agree on the arguments, the kernel's result array ends at `lossArray` of
    the arguments in the vector unit's spelling (`ArrayValue.run`) and the reference's at `lossArray` of the same
    arguments in the host's spelling (`RowValue.result_eq` over its run): one array (`lossArray_hostOps`). -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v111_eq, Cert.ReferenceIdeal.RowValue.result_eq, (hagree c).1, (hagree c).2.1]
  exact lossArray_hostOps _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
